-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x8192x1024 .f32) (main_arg1 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S4x8192x1024 : Shape := ⟨3, ![4, 8192, 1024]⟩
abbrev S1024 : Shape := ⟨1, ![1024]⟩
abbrev S32768x1024 : Shape := ⟨2, ![32768, 1024]⟩
abbrev S1x1024 : Shape := ⟨2, ![1, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S32768x1024, .f32⟩
  | .hbm, ⟨3, _⟩ => ⟨S1x1024, .f32⟩
  | .hbm, ⟨4, _⟩ => ⟨S32768x1024, .f32⟩
  | .hbm, ⟨5, _⟩ => ⟨S4x8192x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .f32⟩
  | .local _ .vmem, ⟨4, _⟩ => ⟨S2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192x1024_S32768x1024 : S4x8192x1024.ShapeCasts S32768x1024
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S32768x1024_S4x8192x1024 : S32768x1024.ShapeCasts S4x8192x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S32768x1024.size a
  hwx0_2 : ∀ i : grid0.Coords, EltTy.bits .f32 = 32 ∨ (Rect.block (s := S32768x1024) S2048x1024.size (cc0_transform_2 i) (hinb0_2 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024 : Shape := ⟨1, ![1024]⟩
abbrev S1x1x1024 : Shape := ⟨3, ![1, 1, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1x1x1024, .f32⟩
  | .hbm, ⟨3, _⟩ => ⟨S4x8192x1024, .f32⟩
  | .hbm, ⟨4, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)

variable [Facts₀]

class Facts : Prop extends Facts₀ where

variable [Facts]
-- ==== Proof.KernelEnds.lean ====
/-
  The kernel's host operations around its one region.

  Before the region two reshapes prepare the operands: the input with its batch and sequence axes merged into the rows
  of a [32768, 1024] matrix, and the scale as the one row of a [1, 1024] matrix. After the region one reshape splits the
  rows of the region's result array back into (batch, position). Each is a change of shape that keeps the row-major
  order of the entries, so the contents are the shape cast of the operand's.
-/
import proofs.«125430_j25125558681902_2_alg».proof.Proof.Gen.KernelIdeal.Frame
import Idealize.ShloMosaic.Lib.StableHlo.Run
import Idealize.ShloMosaic.Lib.Pipeline.Value

noncomputable section

namespace Cert.KernelIdeal.Ends

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ)

/-- The region finds, as its first operand, the input with batch and sequence merged into rows. -/
theorem entry_rows (c : Dev nD) :
    (V m c main_v0 : S32768x1024.Idx → F .f32)
      = shapeCast S32768x1024 (m ((c : Thread nD τ).loc main_arg0)) shapeCasts_S4x8192x1024_S32768x1024 := by
  show StableHlo.after hostOps0 (fun b => m (c, b)) (Proc.devRef .tc main_v0) = _
  after_results
  rfl

/-- The region finds, as its second operand, the scale as a matrix of one row. -/
theorem entry_row (c : Dev nD) :
    (V m c main_v1 : S1x1024.Idx → F .f32)
      = shapeCast S1x1024 (m ((c : Thread nD τ).loc main_arg1)) shapeCasts_S1024_S1x1024 := by
  show StableHlo.after hostOps0 (fun b => m (c, b)) (Proc.devRef .tc main_v1) = _
  after_results
  rfl

/-- The program's result is the region's result array with its rows split back into (batch, position). -/
theorem exit_split (c : Dev nD) :
    (Pipeline.afterTail₀ cfgs (dats m) 0 (V0 m) [hostOps1] c main_v3 : S4x8192x1024.Idx → F .f32)
      = shapeCast S4x8192x1024 ((dats m 0 c).arrAt 2 cfg0.N) shapeCasts_S32768x1024_S4x8192x1024 := by
  unfold Pipeline.afterTail₀
  show StableHlo.after hostOps1 _ (Proc.devRef .tc main_v3) = _
  after_results
  exact congrArg (fun a : S32768x1024.Idx → F .f32 => shapeCast S4x8192x1024 a shapeCasts_S32768x1024_S4x8192x1024)
    (Pipeline.withArrays_arr spec0 launch0.win.arr_inj c (V0 m c) (fun w => (dats m 0 c).arrAt w cfg0.N) 2)

end Cert.KernelIdeal.Ends

end
-- ==== Proof.LibFlattenRows.lean ====
/-
  The two leading axes of an array merged into one, or one leading axis split into two, by a shape cast, read at an
  index given by coordinates.

  An array of shape [a, b, c] and an array of shape [n, c] with n = a·b list the same entries in row-major order: entry
  (p, q, r) of the first stands at position (p·b + q)·c + r, which is the position of entry (p·b + q, r) of the second.
  A cast in either direction therefore reads, at the one index, the operand at the other. The row number is passed as
  its own `Fin n` with the equation `k = p·b + q`, so that a caller may spell it as it finds it.
-/
import Idealize.ShloMosaic.Lib.Pipeline.Value
import Idealize.ShloMosaic.Lib.ValueIdx

namespace Cert.LibFlattenRows

open Idealize.ShloMosaic Idealize.ShloMosaic.ValueIdx

variable {α : Type}

/-- Row `p·b + q` of the merged array exists: it is below `a·b`. -/
theorem row_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- An `[a, b, c]` array cast to `[n, c]` (so `n = a·b`) reads, at `(k, r)` with `k = p·b + q`, the operand at
    `(p, q, r)`: the two indices have the same row-major position. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (k : Fin n)
    (hk : k.val = p.val * b + q.val) :
    shapeCast ⟨2, ![n, c]⟩ x h (ix2 k r) = x (ix3 p q r) :=
  shapeCast_apply x h _ _ (by
    rw [Shape.rowMajor_val_three, Shape.rowMajor_val_two]
    show (p.val * b + q.val) * c + r.val = k.val * c + r.val
    rw [hk])

/-- An `[n, c]` array cast to `[a, b, c]` (so `n = a·b`) reads, at `(p, q, r)`, the operand at `(k, r)` with
    `k = p·b + q`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (r : Fin c) (k : Fin n)
    (hk : k.val = p.val * b + q.val) :
    shapeCast ⟨3, ![a, b, c]⟩ x h (ix3 p q r) = x (ix2 k r) :=
  shapeCast_apply x h _ _ (by
    rw [Shape.rowMajor_val_three, Shape.rowMajor_val_two]
    show k.val * c + r.val = (p.val * b + q.val) * c + r.val
    rw [hk])

end Cert.LibFlattenRows
-- ==== Proof.Spec.lean ====
/-
  What both programs compute, and the fact about positions that joins the kernel's three steps.

  The per-channel scale of a [4, 8192, 1024] array x by a [1024] vector g:   out[b, s, d] = x[b, s, d] · g[d].

  The kernel reaches it in three steps. It merges the batch and sequence axes, so that row b·8192 + s of a
  [32768, 1024] matrix is x[b, s, ·]; it views g as the one row of a [1, 1024] matrix; it multiplies every row of the
  matrix entry by entry by that row; and it splits the rows back into (b, s). Entry (b·8192 + s, d) of the product is
  x[b, s, d] · g[d], and splitting the rows puts it at (b, s, d): the steps compose to the per-channel scale. Only the
  POSITION of the entries is used — the product is the same product of the same two factors in the same order — so the
  fact holds for any arithmetic on the entries, the extended reals among them, and asks nothing of the entries' values.
-/
import Idealize.ShloMosaic.Lib.ValueLayout
import proofs.«125430_j25125558681902_2_alg».proof.Proof.LibFlattenRows

namespace Cert.LayerScale

open Idealize.ShloMosaic Idealize.ShloMosaic.ValueIdx

variable {F : FTy → Type} [FloatOps F]

/-- The input and the result: batch × sequence × channel. -/
abbrev SX : Shape := ⟨3, ![4, 8192, 1024]⟩
/-- The scale: one factor per channel. -/
abbrev SG : Shape := ⟨1, ![1024]⟩
/-- The input with batch and sequence merged: one row per (batch, position). -/
abbrev SRows : Shape := ⟨2, ![32768, 1024]⟩
/-- The scale as a matrix of one row. -/
abbrev SRow : Shape := ⟨2, ![1, 1024]⟩

/-- The per-channel scale: `out[b, s, d] = x[b, s, d] · g[d]`. -/
def perChannel (x : SX.Idx → F .f32) (g : SG.Idx → F .f32) : SX.Idx → F .f32 :=
  fun i => FloatOps.mulf (x i) (g (ix1 (i 2)))

/-- Every row of a [32768, 1024] matrix times the one row of a [1, 1024] matrix, entry by entry:
    `out[r, d] = a[r, d] · g[0, d]`. -/
def rowsScaled (a : SRows.Idx → F .f32) (g : SRow.Idx → F .f32) : SRows.Idx → F .f32 :=
  fun j => FloatOps.mulf (a j) (g (ix2 (0 : Fin 1) (j 1)))

/-- Merge the leading axes, scale the rows by the vector seen as one row, split the rows again: the per-channel scale.
    At (b, s, d) the split reads row b·8192 + s of the product at column d; there the merged input holds x[b, s, d] and
    the one-row matrix holds g[d]. -/
theorem split_rowsScaled_merge (x : SX.Idx → F .f32) (g : SG.Idx → F .f32)
    (h0 : SX.ShapeCasts SRows) (h1 : SG.ShapeCasts SRow) (h3 : SRows.ShapeCasts SX) :
    shapeCast SX (rowsScaled (shapeCast SRows x h0) (shapeCast SRow g h1)) h3 = perChannel x g := by
  funext i
  obtain ⟨b, s, d, rfl⟩ : ∃ (b : Fin 4) (s : Fin 8192) (d : Fin 1024), i = ix3 b s d := ⟨i 0, i 1, i 2, eq_ix3 i⟩
  have hb := b.isLt
  have hs := s.isLt
  rw [Cert.LibFlattenRows.shapeCast_nc_abc_apply _ h3 b s d ⟨b.val * 8192 + s.val, by omega⟩ rfl]
  show FloatOps.mulf (shapeCast SRows x h0 (ix2 (⟨b.val * 8192 + s.val, by omega⟩ : Fin 32768) d))
      (shapeCast SRow g h1 (ix2 (0 : Fin 1) d)) = FloatOps.mulf (x (ix3 b s d)) (g (ix1 d))
  rw [Cert.LibFlattenRows.shapeCast_abc_nc_apply x h0 b s d _ rfl, shapeCast_a_1a_apply]

end Cert.LayerScale
-- ==== Proof.KernelBlocks.lean ====
/-
  From the sixteen blocks to the region's result array.

  The region walks the [32768, 1024] matrix in sixteen blocks of 2048 rows. At block t it loads rows 2048·t … 2048·t + 2047
  of the matrix and the whole one-row scale, multiplies each loaded row entry by entry by the scale row, and writes the
  products over the same rows of the result. Entry (p, q) of the block written is therefore entry (2048·t + p, q) of the
  matrix times entry (0, q) of the scale row — the block of ONE whole-array function, "every row times the scale row".
  The sixteen blocks tile the rows (row r lies in block r / 2048), so after the region the result array is that function.
-/
import proofs.«125430_j25125558681902_2_alg».proof.Proof.Gen.KernelIdeal.Frame
import proofs.«125430_j25125558681902_2_alg».proof.Proof.Spec
import Idealize.ShloMosaic.Lib.Pipeline.Value
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.LayerScale (rowsScaled)

variable {F : FTy → Type} [FloatOps F]
variable (m : (ℓ : Loc nD τ sig) → Buf (Elt F) ℓ)

/-- The body's loads and its store start at the corner of their buffers. -/
theorem corner : (![0, 0] : Fin 2 → Nat) = fun _ => 0 := funext fun a => by fin_cases a <;> rfl

/-- What the body stores, entry by entry: the loaded block's entry times the loaded scale row's entry in the same
    column. (The two shape casts are to the same shape; the broadcast repeats the one row down the block.) -/
theorem body_apply (x0 : Vec F S2048x1024 .f32) (x1 : Vec F S1x1024 .f32) (j : S2048x1024.Idx) :
    k0_pay1 x0 x1 j = FloatOps.mulf (x0 j) (x1 (ix2 (0 : Fin 1) (j 1))) := by
  obtain ⟨p, q, rfl⟩ : ∃ (p : Fin 2048) (q : Fin 1024), j = ix2 p q := ⟨j 0, j 1, eq_ix2 j⟩
  unfold k0_pay1
  show FloatOps.mulf (shapeCast S2048x1024 x0 shapeCasts_S2048x1024_S2048x1024 (ix2 p q))
      (broadcastTo S2048x1024 (shapeCast S1x1024 x1 shapeCasts_S1x1024_S1x1024) broadcasts_S1x1024_S2048x1024 (ix2 p q)) = _
  rw [shapeCast_self, shapeCast_self, broadcastTo_1b_ab_apply]

/-- Where the blocks sit, decided over the sixteen points: the input block moves with the output block, the scale row's
    block never moves, and output block t is the t-th block of rows (all columns). -/
theorem block_index : ∀ t : Fin cfg0.N,
    win0_0.index t (0 : Fin 2) = win0_2.index t (0 : Fin 2) ∧ win0_0.index t (1 : Fin 2) = win0_2.index t (1 : Fin 2)
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of "every row of the merged input times the scale row". -/
theorem flushed_eq (c : Dev nD) (t : Fin cfg0.N) :
    (dats m 0 c).flushed 2 t
      = ((cfg0.win 2).blk t).view.read (Elt F) (rowsScaled (V m c main_v0) (V m c main_v1)) := by
  show (cfg0.win 2).cut (grid0.coords t) ((dats m 0 c).after 2 t) = _
  rw [after0_2]
  unfold out0_2
  rw [View.canon_unit_zero corner]
  simp only [View.ld_unit_zero (S := S2048x1024) corner, View.ld_unit_zero (S := S1x1024) corner]
  obtain ⟨e0, e1, e2, e3, e4, e5⟩ := block_index t
  funext j
  refine (body_apply (iblk m c 0 t) (iblk m c 1 t) j).trans ?_
  show FloatOps.mulf (V m c main_v0 (((cfg0.win 0).blk t).view.emb j))
        (V m c main_v1 (((cfg0.win 1).blk t).view.emb (ix2 (0 : Fin 1) (j 1))))
      = FloatOps.mulf (V m c main_v0 (((cfg0.win 2).blk t).view.emb j))
        (V m c main_v1 (ix2 (0 : Fin 1) ((((cfg0.win 2).blk t).view.emb j) 1)))
  have h0 : ((cfg0.win 0).blk t).view.emb j = ((cfg0.win 2).blk t).view.emb j := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * (j 1).val = win0_2.index t (1 : Fin 2) * 1024 + 1 * (j 1).val; omega
  have h1 : ((cfg0.win 1).blk t).view.emb (ix2 (0 : Fin 1) (j 1))
      = ix2 (0 : Fin 1) ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 1024 + 1 * (j 1).val = win0_2.index t (1 : Fin 2) * 1024 + 1 * (j 1).val; omega
  rw [h0, h1]
  rfl

/-- An index of the result array is in point t's block iff each coordinate is in the block's range on its axis. -/
theorem mem_block (t : Fin cfg0.N) (i : S32768x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v2).slice (win0_2.rect t)).set ↔ _
  rw [View.set_slice_whole, Rect.mem_set_unit]
  exact Iff.rfl

/-- Every entry of the result array is written: row r lies in block r / 2048, and every block spans all columns. -/
theorem covered (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  have hN : (i 0).val / 2048 < cfg0.N := by
    have h16 := N_0
    show (i 0).val / 2048 < grid0.N
    omega
  obtain ⟨-, -, -, -, e4, e5⟩ := block_index ⟨(i 0).val / 2048, hN⟩
  have e4' : win0_2.index ⟨(i 0).val / 2048, hN⟩ (0 : Fin 2) = (i 0).val / 2048 := e4
  refine ⟨⟨(i 0).val / 2048, hN⟩, flush0_2 _, ?_⟩
  rw [mem_block]
  intro a
  match a with
  | ⟨0, _⟩ =>
    show win0_2.index ⟨(i 0).val / 2048, hN⟩ (0 : Fin 2) * 2048 ≤ (i 0).val
      ∧ (i 0).val < win0_2.index ⟨(i 0).val / 2048, hN⟩ (0 : Fin 2) * 2048 + 2048
    omega
  | ⟨1, _⟩ =>
    show win0_2.index ⟨(i 0).val / 2048, hN⟩ (1 : Fin 2) * 1024 ≤ (i 1).val
      ∧ (i 1).val < win0_2.index ⟨(i 0).val / 2048, hN⟩ (1 : Fin 2) * 1024 + 1024
    omega

/-- After the region the result array holds every row of the merged input times the scale row. -/
theorem region_result (c : Dev nD) :
    (dats m 0 c).arrAt 2 cfg0.N = rowsScaled (V m c main_v0) (V m c main_v1) :=
  (dats m 0 c).arrAt_eq_of_cover 2 _ (fun t _ => flushed_eq m c t) covered

end Cert.KernelIdeal.Blocks

end
-- ==== Proof.KernelRun.lean ====
/-
  The kernel's run, with its result named: the per-channel scale of its two arguments.

  The program's result is the region's result array with its rows split back into (batch, position); the region's result
  array is every row of the merged input times the scale row; the merged input and the scale row are shape casts of the
  two arguments. Merging, scaling the rows and splitting again is the per-channel scale.
-/
import proofs.«125430_j25125558681902_2_alg».proof.Proof.KernelEnds
import proofs.«125430_j25125558681902_2_alg».proof.Proof.KernelBlocks

noncomputable section

namespace Cert.KernelIdeal.Run

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What the lines after the region leave in the result buffer: the per-channel scale of the arguments as launched. -/
theorem result_eq (c : Dev nD) :
    (Pipeline.afterTail₀ cfgs (dats m) 0 (V0 m) [hostOps1] c main_v3 : S4x8192x1024.Idx → F .f32)
      = Cert.LayerScale.perChannel (m ((c : Thread nD τ).loc main_arg0)) (m ((c : Thread nD τ).loc main_arg1)) := by
  rw [Ends.exit_split, Blocks.region_result, Ends.entry_rows, Ends.entry_row]
  exact Cert.LayerScale.split_rowsScaled_merge _ _ _ _ _

/-- Every weakly fair execution of the kernel's program terminates, without a fault, with the result buffer at the
    per-channel scale of the arguments and the arguments unchanged. -/
theorem run : θ_run defs (onTc (τ := τ) (main (F := F))) ⟨m, fun _ => 0, ρ⟩ fun r => ∀ c : Dev nD,
      r.2.mem ((c.tc : Thread nD τ).loc main_v3)
        = Cert.LayerScale.perChannel (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Run

end
-- ==== Proof.RefValue.lean ====
/-
  The reference's result is the per-channel scale.

  The reference spreads g over a [1, 1, 1024] array, spreads that over the whole [4, 8192, 1024] shape, and multiplies
  x by it entry by entry. Both spreadings keep the channel coordinate and forget the others, so the spread array holds
  g[d] at (b, s, d), and the product there is x[b, s, d] · g[d].
-/
import proofs.«125430_j25125558681902_2_alg».proof.Proof.Gen.ReferenceIdeal.Read
import proofs.«125430_j25125558681902_2_alg».proof.Proof.Spec

noncomputable section

namespace Cert.ReferenceIdeal.RefValue

open Cert.ReferenceIdeal Cert.ReferenceIdeal.Read Idealize.ShloMosaic Idealize.ShloMosaic.ValueIdx

variable {F : FTy → Type} [FloatOps F]

/-- The two spreadings composed send (b, s, d) to the channel d. -/
theorem channel_of (i : S4x8192x1024.Idx) : idx_main_v0 (idx_main_v1 i) = ix1 (i 2) :=
  funext fun a => Fin.ext (by match a with | ⟨0, _⟩ => rfl)

/-- The reference's result, as a function of its two arguments, is the per-channel scale: at (b, s, d) the product of
    x[b, s, d] and the spread array's entry there, which is g[d]. -/
theorem result_eq (x0 : (⟨S4x8192x1024, .f32⟩ : BufTy).Contents (Elt F)) (x1 : (⟨S1024, .f32⟩ : BufTy).Contents (Elt F)) :
    val_main_v2 (F := F) x0 x1 = Cert.LayerScale.perChannel x0 x1 := by
  funext i
  rw [val_main_v2_apply, val_main_v1_apply, val_main_v0_apply, channel_of]
  rfl

end Cert.ReferenceIdeal.RefValue

end
-- ==== Proof.lean ====
/-
  Per-channel scale, `out[b, s, d] = x[b, s, d] · g[d]` for x of shape [4, 8192, 1024] and g of shape [1024]: a tiled
  kernel against the plain array expression, equal over the extended reals.

  The reference spreads g along the batch and sequence axes and multiplies entry by entry. The kernel merges batch and
  sequence into the 32768 rows of a matrix, walks the rows in sixteen blocks of 2048, multiplies each block row by row
  by g seen as one row, and splits the rows of the result back into (batch, position). Both put at (b, s, d) the product
  of the same two numbers, x[b, s, d] and g[d], in the same order: the two results agree entry by entry whatever the
  entries are, so the precondition that the inputs are finite is never opened, and no law of arithmetic is used — only
  where each entry sits (Proof/Spec.lean states the function and the fact about positions; Proof/RefValue.lean reads the
  reference; Proof/KernelEnds.lean, KernelBlocks.lean and KernelRun.lean read the kernel).

  The three frame claims are the generated frame runs (the reference's is its generated run with the result dropped);
  the idealization rewrote no operation of the kernel, so there is nothing to preserve.
-/
import proofs.«125430_j25125558681902_2_alg».proof.Defs
import proofs.«125430_j25125558681902_2_alg».proof.Proof.Gen.Kernel
import proofs.«125430_j25125558681902_2_alg».proof.Proof.Gen.Kernel.Skeleton
import proofs.«125430_j25125558681902_2_alg».proof.Proof.Gen.Kernel.Launch
import proofs.«125430_j25125558681902_2_alg».proof.Proof.Gen.Kernel.Points
import proofs.«125430_j25125558681902_2_alg».proof.Proof.Gen.Kernel.Frame
import proofs.«125430_j25125558681902_2_alg».proof.Proof.Gen.KernelIdeal
import proofs.«125430_j25125558681902_2_alg».proof.Proof.Gen.KernelIdeal.Skeleton
import proofs.«125430_j25125558681902_2_alg».proof.Proof.Gen.KernelIdeal.Launch
import proofs.«125430_j25125558681902_2_alg».proof.Proof.Gen.KernelIdeal.Points
import proofs.«125430_j25125558681902_2_alg».proof.Proof.Gen.KernelIdeal.Frame
import proofs.«125430_j25125558681902_2_alg».proof.Proof.Gen.ReferenceIdeal
import proofs.«125430_j25125558681902_2_alg».proof.Proof.Gen.ReferenceIdeal.Run
import proofs.«125430_j25125558681902_2_alg».proof.Proof.Gen.ReferenceIdeal.Read
import proofs.«125430_j25125558681902_2_alg».proof.Proof.Gen.Pre_finite_inputs
import proofs.«125430_j25125558681902_2_alg».proof.Proof.KernelRun
import proofs.«125430_j25125558681902_2_alg».proof.Proof.RefValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on x and g, the kernel and the reference both end with the per-channel scale of x by g
    in their result buffers: the kernel by its run read block by block, the reference by its run read operation by
    operation, the two stated with the one function of the arguments. -/
theorem algebraic : Cert.algebraic_KernelIdeal_ReferenceIdeal := by
  intro m ρ m' ρ' _ hagree
  refine ⟨_, Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
